-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_
  reducesTo_S_S_d : S_.ReducesTo [] S_

variable [Facts]

def fn_part1 {F : FTy → Type} [FloatOps F] (main_arg4 : FVec F S16x4096 .f32) (main_arg5 : FVec F S_ .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_v24 : FVec F S_ .f32 := Host.absf main_arg5
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  main_v27

def fn {F : FTy → Type} [FloatOps F] (main_arg0 : FVec F S8192x4096 .f32) (main_arg1 : FVec F S4096x4096 .f32) (main_arg2 : FVec F S4096 .f32) (main_arg3 : FVec F S4096x16 .f32) (main_arg4 : FVec F S16x4096 .f32) (main_arg5 : FVec F S_ .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_arg5 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩
abbrev S8192x16 : Shape := ⟨2, ![8192, 16]⟩
abbrev S1x4096 : Shape := ⟨2, ![1, 4096]⟩
abbrev S1024x1024 : Shape := ⟨2, ![1024, 1024]⟩
abbrev S1024x16 : Shape := ⟨2, ![1024, 16]⟩
abbrev S1x1024 : Shape := ⟨2, ![1, 1024]⟩

abbrev nBuf : Space → Nat
  | .hbm => 16
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S_, .f32⟩
  | .hbm, ⟨6, _⟩ => ⟨S16x4096, .f32⟩
  | .hbm, ⟨7, _⟩ => ⟨S16x4096, .f32⟩
  | .hbm, ⟨8, _⟩ => ⟨S4096x16, .f32⟩
  | .hbm, ⟨9, _⟩ => ⟨S8192x16, .f32⟩
  | .hbm, ⟨10, _⟩ => ⟨S8192x16, .bf16⟩
  | .hbm, ⟨11, _⟩ => ⟨S8192x4096, .bf16⟩
  | .hbm, ⟨12, _⟩ => ⟨S4096x4096, .bf16⟩
  | .hbm, ⟨13, _⟩ => ⟨S4096x16, .bf16⟩
  | .hbm, ⟨14, _⟩ => ⟨S1x4096, .f32⟩
  | .hbm, ⟨15, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x16, .bf16⟩
  | .local _ .vmem, ⟨5, _⟩ => ⟨S1024x16, .bf16⟩
  | .local _ .vmem, ⟨6, _⟩ => ⟨S1024x16, .bf16⟩
  | .local _ .vmem, ⟨7, _⟩ => ⟨S1024x16, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bcast_S_S16x4096 : S_.BroadcastsInDim S16x4096 (![] : Fin 0 → Fin S16x4096.rank)
  transposes_S16x4096_S4096x16_1_0 : S16x4096.Transposes [1, 0] S4096x16
  bitsLt_bf16_f32 : FTy.bits .bf16 < FTy.bits .f32
  shapeCasts_S4096_S1x4096 : S4096.ShapeCasts S1x4096
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S8192x4096_S4096x16_S8192x16_1_0_0_1_n_n_wf : DotDims.WF S8192x4096 S4096x16 S8192x16 [1] [0] [0] [1] [] []
  dot_S1024x16_S1024x16_S1024x1024_1_1_0_0_n_n_wf : DotDims.WF S1024x16 S1024x16 S1024x1024 [1] [1] [0] [0] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S8192x16.size a
  hwx0_2 : ∀ i : grid0.Coords, EltTy.bits .bf16 = 32 ∨ (Rect.block (s := S8192x16) S1024x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .bf16 = 32 ∨ (Rect.block (s := S4096x16) S1024x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v5) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩
abbrev S1x4096 : Shape := ⟨2, ![1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S8192x4096, .f32⟩
  | .hbm, ⟨11, _⟩ => ⟨S1x4096, .f32⟩
  | .hbm, ⟨12, _⟩ => ⟨S8192x4096, .f32⟩
  | .hbm, ⟨13, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S4096x16_S16x4096_S4096x4096_1_0_0_1_n_n_wf : DotDims.WF S4096x16 S16x4096 S4096x4096 [1] [0] [0] [1] [] []
  dot_S8192x4096_S4096x4096_S8192x4096_1_1_0_0_n_n_wf : DotDims.WF S8192x4096 S4096x4096 S8192x4096 [1] [1] [0] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Payloads.lean ====
/-
  The body's three stored values read at an index, on the extended reals.

  Each grid point holds a 1024 × 1024 tile of the output. The first point of a run of four stores the low-rank
  term: the point's 1024 × 16 tile of `y` contracted with the point's 1024 × 16 tile of `B` along their second
  axes, so entry `(u, v)` is `∑ r, y (u, r) * B (v, r)`. Every point adds to the tile the product of its
  1024 × 1024 tiles of `x` and `W`, again along their second axes: entry `(u, v)` grows by
  `∑ k, x (u, k) * W (v, k)`. The last point of the run adds the bias row, the same for every `u`.
  A product into the zero accumulator is just the sum, and casting a tile to its own shape changes nothing.
-/
import proofs.«156513_j30451318128976_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Tile

open Cert.KernelIdeal Cert.KernelIdeal.Gen
open Idealize.ShloMosaic Idealize.ShloMosaic.ValueIdx

/-! ### The two contractions along both operands' second axes -/

theorem lhs16_0 (i : S1024x1024.Idx) (q : dot_S1024x16_S1024x16_S1024x1024_1_1_0_0_n_n.contr.Idx) :
    (dot_S1024x16_S1024x16_S1024x1024_1_1_0_0_n_n.lhsIdx i q 0).val = (i 0).val := by
  unfold DotDims.lhsIdx
  rw [dif_neg (show ¬(0 : Fin S1024x16.rank) ∈ dot_S1024x16_S1024x16_S1024x1024_1_1_0_0_n_n.lhsBatch by decide),
    dif_pos (show (0 : Fin S1024x16.rank) ∈ dot_S1024x16_S1024x16_S1024x1024_1_1_0_0_n_n.lhsNonContracting by decide)]
  rfl

theorem rhs16_0 (i : S1024x1024.Idx) (q : dot_S1024x16_S1024x16_S1024x1024_1_1_0_0_n_n.contr.Idx) :
    (dot_S1024x16_S1024x16_S1024x1024_1_1_0_0_n_n.rhsIdx i q 0).val = (i 1).val := by
  unfold DotDims.rhsIdx
  rw [dif_neg (show ¬(0 : Fin S1024x16.rank) ∈ dot_S1024x16_S1024x16_S1024x1024_1_1_0_0_n_n.rhsBatch by decide),
    dif_pos (show (0 : Fin S1024x16.rank) ∈ dot_S1024x16_S1024x16_S1024x1024_1_1_0_0_n_n.rhsNonContracting by decide)]
  rfl

/-- The rank-16 product into the zero accumulator, at `(u, v)`. -/
theorem matmul16_zero_apply (y b : FVec Ideal S1024x16 .bf16) (u v : Fin 1024) :
    matmul (F := Ideal) dot_S1024x16_S1024x16_S1024x1024_1_1_0_0_n_n none y b (constant (F := Ideal) S1024x1024 .f32 0x00000000#32) (ix2 u v)
      = ∑ r : Fin 16, y (ix2 u r) * b (ix2 v r) := by
  show FloatOps.matmul dot_S1024x16_S1024x16_S1024x1024_1_1_0_0_n_n none y b (constant (F := Ideal) S1024x1024 .f32 0x00000000#32) (ix2 u v) = _
  rw [Ideal.matmul_constant_zero_apply, ← Equiv.sum_comp (contrEquiv1 dot_S1024x16_S1024x16_S1024x1024_1_1_0_0_n_n 16 rfl rfl).symm]
  refine Finset.sum_congr rfl fun k _ => ?_
  have hk := contrEquiv1_symm_val dot_S1024x16_S1024x16_S1024x1024_1_1_0_0_n_n 16 rfl rfl k
  have el : dot_S1024x16_S1024x16_S1024x1024_1_1_0_0_n_n.lhsIdx (ix2 u v) ((contrEquiv1 dot_S1024x16_S1024x16_S1024x1024_1_1_0_0_n_n 16 rfl rfl).symm k) = ix2 u k :=
    funext fun a => Fin.ext (by
      match a with
      | ⟨0, _⟩ => exact lhs16_0 _ _
      | ⟨1, _⟩ => exact (dot_S1024x16_S1024x16_S1024x1024_1_1_0_0_n_n.lhsIdx_val_of_single rfl _ _).trans hk)
  have er : dot_S1024x16_S1024x16_S1024x1024_1_1_0_0_n_n.rhsIdx (ix2 u v) ((contrEquiv1 dot_S1024x16_S1024x16_S1024x1024_1_1_0_0_n_n 16 rfl rfl).symm k) = ix2 v k :=
    funext fun a => Fin.ext (by
      match a with
      | ⟨0, _⟩ => exact rhs16_0 _ _
      | ⟨1, _⟩ => exact (dot_S1024x16_S1024x16_S1024x1024_1_1_0_0_n_n.rhsIdx_val_of_single rfl _ _).trans hk)
  rw [el, er]

theorem lhs1024_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

theorem rhs1024_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- The tile product into the zero accumulator, at `(u, v)`. -/
theorem matmul1024_zero_apply (x w : FVec Ideal S1024x1024 .bf16) (u v : Fin 1024) :
    matmul (F := Ideal) dot_S1024x1024_S1024x1024_S1024x1024_1_1_0_0_n_n none x w (constant (F := Ideal) S1024x1024 .f32 0x00000000#32) (ix2 u v)
      = ∑ k : Fin 1024, x (ix2 u k) * w (ix2 v k) := by
  show FloatOps.matmul dot_S1024x1024_S1024x1024_S1024x1024_1_1_0_0_n_n none x w (constant (F := Ideal) S1024x1024 .f32 0x00000000#32) (ix2 u v) = _
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 u v) ((contrEquiv1 dot_S1024x1024_S1024x1024_S1024x1024_1_1_0_0_n_n 1024 rfl rfl).symm k) = ix2 u k :=
    funext fun a => Fin.ext (by
      match a with
      | ⟨0, _⟩ => exact lhs1024_0 _ _
      | ⟨1, _⟩ => exact (dot_S1024x1024_S1024x1024_S1024x1024_1_1_0_0_n_n.lhsIdx_val_of_single rfl _ _).trans hk)
  have er : dot_S1024x1024_S1024x1024_S1024x1024_1_1_0_0_n_n.rhsIdx (ix2 u v) ((contrEquiv1 dot_S1024x1024_S1024x1024_S1024x1024_1_1_0_0_n_n 1024 rfl rfl).symm k) = ix2 v k :=
    funext fun a => Fin.ext (by
      match a with
      | ⟨0, _⟩ => exact rhs1024_0 _ _
      | ⟨1, _⟩ => exact (dot_S1024x1024_S1024x1024_S1024x1024_1_1_0_0_n_n.rhsIdx_val_of_single rfl _ _).trans hk)
  rw [el, er]

/-! ### The three stored values -/

/-- The low-rank term the first point of a run stores, at `(u, v)`. -/
theorem lowrank_apply (y b : Vec Ideal S1024x16 .bf16) (u v : Fin 1024) :
    k0_pay1 (F := Ideal) y b (ix2 u v) = ∑ r : Fin 16, y (ix2 u r) * b (ix2 v r) := by
  unfold k0_pay1
  rw [shapeCast_self, shapeCast_self]
  exact matmul16_zero_apply y b u v

/-- What every point stores: the tile so far plus the point's product, at `(u, v)`. -/
theorem accumulate_apply (acc : Vec Ideal S1024x1024 .f32) (x w : Vec Ideal S1024x1024 .bf16) (u v : Fin 1024) :
    k0_pay2 (F := Ideal) acc x w (ix2 u v) = acc (ix2 u v) + ∑ k : Fin 1024, x (ix2 u k) * w (ix2 v k) := by
  unfold k0_pay2
  rw [shapeCast_self, shapeCast_self, shapeCast_self, addf_apply]
  exact congrArg (acc (ix2 u v) + ·) (matmul1024_zero_apply x w u v)

/-- What the last point of a run stores on top: the bias row, at `(u, v)`. -/
theorem bias_apply (acc : Vec Ideal S1024x1024 .f32) (β : Vec Ideal S1x1024 .f32) (u v : Fin 1024) :
    k0_pay3 (F := Ideal) acc β (ix2 u v) = acc (ix2 u v) + β (ix2 (0 : Fin 1) v) := by
  unfold k0_pay3
  rw [shapeCast_self, shapeCast_self, addf_apply]
  refine congrArg (acc (ix2 u v) + ·) ?_
  refine broadcastTo_apply β broadcasts_S1x1024_S1024x1024 (ix2 u v) (ix2 (0 : Fin 1) v) (fun a => ?_)
  match a with
  | ⟨0, _⟩ => show (0 : Nat) = if (1 : Nat) = 1 then 0 else _; rw [if_pos rfl]
  | ⟨1, _⟩ => show v.val = if (1024 : Nat) = 1 then 0 else v.val; rw [if_neg (by decide)]

/-- A whole run of four points, at `(u, v)`: the low-rank term, the four tile products added one after another, and
    the bias row. -/
theorem run_apply (y b : Vec Ideal S1024x16 .bf16) (x0 w0 x1 w1 x2 w2 x3 w3 : Vec Ideal S1024x1024 .bf16)
    (β : Vec Ideal S1x1024 .f32) (u v : Fin 1024) :
    k0_pay3 (F := Ideal) (k0_pay2 (k0_pay2 (k0_pay2 (k0_pay2 (k0_pay1 y b) x0 w0) x1 w1) x2 w2) x3 w3) β (ix2 u v)
      = (((((∑ r : Fin 16, y (ix2 u r) * b (ix2 v r)) + ∑ k : Fin 1024, x0 (ix2 u k) * w0 (ix2 v k))
          + ∑ k : Fin 1024, x1 (ix2 u k) * w1 (ix2 v k)) + ∑ k : Fin 1024, x2 (ix2 u k) * w2 (ix2 v k))
          + ∑ k : Fin 1024, x3 (ix2 u k) * w3 (ix2 v k)) + β (ix2 (0 : Fin 1) v) := by
  rw [bias_apply, accumulate_apply, accumulate_apply, accumulate_apply, accumulate_apply, lowrank_apply]

end Cert.KernelIdeal.Tile

end
-- ==== Proof.HostWindows.lean ====
/-
  The arrays the tiled region reads, as functions of the arguments.

  Before the region runs, the host prepares its five operands. Three are the arguments `x`, `W` and `B` with
  their float format changed, which on the extended reals changes nothing. The bias vector is given a leading
  axis of length one. The fifth is `y = x · (A * s)ᵀ`: the factor `A` is scaled entrywise by the scalar `s`,
  transposed, and contracted with `x` along the 4096 inner coordinates, so
  `y (p, r) = ∑ k, x (p, k) * (A (r, k) * s)`.
-/
import proofs.«156513_j30451318128976_2_alg».proof.Proof.Gen.KernelIdeal.Frame
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.Entry

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (c : Dev nD)

/-- The six arguments on core `c`, as arrays of extended reals: `x`, `W`, the bias, `B`, `A` and the scale. -/
abbrev argX : FVec Ideal S8192x4096 .f32 := m ((c : Thread nD τ).loc main_arg0)
abbrev argW : FVec Ideal S4096x4096 .f32 := m ((c : Thread nD τ).loc main_arg1)
abbrev argBias : FVec Ideal S4096 .f32 := m ((c : Thread nD τ).loc main_arg2)
abbrev argB : FVec Ideal S4096x16 .f32 := m ((c : Thread nD τ).loc main_arg3)
abbrev argA : FVec Ideal S16x4096 .f32 := m ((c : Thread nD τ).loc main_arg4)
abbrev argS : FVec Ideal S_ .f32 := m ((c : Thread nD τ).loc main_arg5)

/-- The region's first operand is `x`. -/
theorem x_at (i : S8192x4096.Idx) :
    V m c main_v5 i = argX m c i := by
  have e : (V m c main_v5 : S8192x4096.Idx → EReal)
      = truncf (F := Ideal) .bf16 (m ((c : Thread nD τ).loc main_arg0)) bitsLt_bf16_f32 := by
    dsimp only [Gen.V, Gen.hostOps0]; after_results
  exact congrFun e i

/-- The region's second operand is `W`. -/
theorem w_at (i : S4096x4096.Idx) :
    V m c main_v6 i = argW m c i := by
  have e : (V m c main_v6 : S4096x4096.Idx → EReal)
      = truncf (F := Ideal) .bf16 (m ((c : Thread nD τ).loc main_arg1)) bitsLt_bf16_f32 := by
    dsimp only [Gen.V, Gen.hostOps0]; after_results
  exact congrFun e i

/-- The region's fourth operand is `B`. -/
theorem b_at (i : S4096x16.Idx) :
    V m c main_v7 i = argB m c i := by
  have e : (V m c main_v7 : S4096x16.Idx → EReal)
      = truncf (F := Ideal) .bf16 (m ((c : Thread nD τ).loc main_arg3)) bitsLt_bf16_f32 := by
    dsimp only [Gen.V, Gen.hostOps0]; after_results
  exact congrFun e i

/-- The region's fifth operand is the bias with a leading unit axis. -/
theorem bias_at (v : Fin 4096) :
    V m c main_v8 (ix2 (0 : Fin 1) v) = argBias m c (ix1 v) := by
  have e : (V m c main_v8 : S1x4096.Idx → EReal)
      = shapeCast S1x4096 (m ((c : Thread nD τ).loc main_arg2)) shapeCasts_S4096_S1x4096 := by
    dsimp only [Gen.V, Gen.hostOps0]; after_results; rfl
  rw [e]
  refine (shapeCast_addUnit_apply ![4096] (m ((c : Thread nD τ).loc main_arg2)) shapeCasts_S4096_S1x4096 (ix2 (0 : Fin 1) v)).trans ?_
  exact congrArg _ (funext fun a => by match a with | ⟨0, _⟩ => rfl)

theorem lhsY_0 (i : S8192x16.Idx) (q : dot_S8192x4096_S4096x16_S8192x16_1_0_0_1_n_n.contr.Idx) :
    (dot_S8192x4096_S4096x16_S8192x16_1_0_0_1_n_n.lhsIdx i q 0).val = (i 0).val := by
  unfold DotDims.lhsIdx
  rw [dif_neg (show ¬(0 : Fin S8192x4096.rank) ∈ dot_S8192x4096_S4096x16_S8192x16_1_0_0_1_n_n.lhsBatch by decide),
    dif_pos (show (0 : Fin S8192x4096.rank) ∈ dot_S8192x4096_S4096x16_S8192x16_1_0_0_1_n_n.lhsNonContracting by decide)]
  rfl

theorem rhsY_1 (i : S8192x16.Idx) (q : dot_S8192x4096_S4096x16_S8192x16_1_0_0_1_n_n.contr.Idx) :
    (dot_S8192x4096_S4096x16_S8192x16_1_0_0_1_n_n.rhsIdx i q 1).val = (i 1).val := by
  unfold DotDims.rhsIdx
  rw [dif_neg (show ¬(1 : Fin S4096x16.rank) ∈ dot_S8192x4096_S4096x16_S8192x16_1_0_0_1_n_n.rhsBatch by decide),
    dif_pos (show (1 : Fin S4096x16.rank) ∈ dot_S8192x4096_S4096x16_S8192x16_1_0_0_1_n_n.rhsNonContracting by decide)]
  rfl

/-- The host's product of `x` with a 4096 × 16 matrix, at `(p, r)`. -/
theorem dotY_apply (x : FVec Ideal S8192x4096 .f32) (z : FVec Ideal S4096x16 .f32) (p : Fin 8192) (r : Fin 16) :
    Host.dotGeneral (F := Ideal) dot_S8192x4096_S4096x16_S8192x16_1_0_0_1_n_n none x z (ix2 p r)
      = ∑ k : Fin 4096, x (ix2 p k) * z (ix2 k r) := by
  simp only [Host.dotGeneral]
  rw [Ideal.dotGeneral_apply, ← Equiv.sum_comp (contrEquiv1 dot_S8192x4096_S4096x16_S8192x16_1_0_0_1_n_n 4096 rfl rfl).symm]
  refine Finset.sum_congr rfl fun k _ => ?_
  have hk := contrEquiv1_symm_val dot_S8192x4096_S4096x16_S8192x16_1_0_0_1_n_n 4096 rfl rfl k
  have el : dot_S8192x4096_S4096x16_S8192x16_1_0_0_1_n_n.lhsIdx (ix2 p r) ((contrEquiv1 dot_S8192x4096_S4096x16_S8192x16_1_0_0_1_n_n 4096 rfl rfl).symm k) = ix2 p k :=
    funext fun a => Fin.ext (by
      match a with
      | ⟨0, _⟩ => exact lhsY_0 _ _
      | ⟨1, _⟩ => exact (dot_S8192x4096_S4096x16_S8192x16_1_0_0_1_n_n.lhsIdx_val_of_single rfl _ _).trans hk)
  have er : dot_S8192x4096_S4096x16_S8192x16_1_0_0_1_n_n.rhsIdx (ix2 p r) ((contrEquiv1 dot_S8192x4096_S4096x16_S8192x16_1_0_0_1_n_n 4096 rfl rfl).symm k) = ix2 k r :=
    funext fun a => Fin.ext (by
      match a with
      | ⟨0, _⟩ => exact (dot_S8192x4096_S4096x16_S8192x16_1_0_0_1_n_n.rhsIdx_val_of_single rfl _ _).trans hk
      | ⟨1, _⟩ => exact rhsY_1 _ _)
  rw [el, er]

/-- The region's third operand is `y = x · (A * s)ᵀ`, at `(p, r)`. -/
theorem y_at (p : Fin 8192) (r : Fin 16) :
    (V m c main_v4 : FVec Ideal S8192x16 .bf16) (ix2 p r)
      = ∑ k : Fin 4096, argX m c (ix2 p k) * (argA m c (ix2 r k) * argS m c ix0) := by
  have e : (V m c main_v4 : FVec Ideal S8192x16 .bf16)
      = truncf (F := Ideal) .bf16
          (Host.dotGeneral (F := Ideal) dot_S8192x4096_S4096x16_S8192x16_1_0_0_1_n_n none (argX m c)
            (transpose S4096x16 [1, 0]
              (mulf (argA m c) (broadcastInDim S16x4096 ![] bcast_S_S16x4096 (argS m c)))
              transposes_S16x4096_S4096x16_1_0))
          bitsLt_bf16_f32 := by
    dsimp only [Gen.V, Gen.hostOps0]; after_results
  refine (congrFun e (ix2 p r)).trans ?_
  refine (dotY_apply (argX m c) _ p r).trans ?_
  refine Finset.sum_congr rfl fun k _ => ?_
  refine congrArg (_ * ·) ?_
  rw [transpose_apply [1, 0] _ transposes_S16x4096_S4096x16_1_0 (ix2 k r) (ix2 r k)
    (fun b => by match b with | ⟨0, _⟩ => rfl | ⟨1, _⟩ => rfl), mulf_apply]
  refine congrArg (_ * ·) ?_
  exact broadcastInDim_apply _ bcast_S_S16x4096 _ (ix2 r k) ix0 (fun a => a.elim0)

end Cert.KernelIdeal.Entry

end
-- ==== Proof.LibBlockSum.lean ====
/-
  Sums cut into consecutive blocks.

  A sum of `n * b` terms of a commutative additive monoid, indexed by `Fin (n * b)`, is the sum over the
  `n` consecutive blocks of length `b` of each block's sum: term `p * b + q` is term `q` of block `p`.
  No subtraction and no cancellation is used, so the law holds on the extended reals with their
  infinities as it does on the reals.
-/
import Mathlib.Algebra.BigOperators.Fin
import Mathlib.Logic.Equiv.Fin.Basic

namespace BlockSum

variable {M : Type*} [AddCommMonoid M]

/-- Position `q` of block `p`, as a position among all `n * b` terms. -/
def pos {n b : ℕ} (p : Fin n) (q : Fin b) : Fin (n * b) :=
  ⟨p.val * b + q.val, by
    have hp : p.val + 1 ≤ n := p.isLt
    calc p.val * b + q.val < p.val * b + b := Nat.add_lt_add_left q.isLt _
      _ = (p.val + 1) * b := (Nat.succ_mul _ _).symm
      _ ≤ n * b := Nat.mul_le_mul_right b hp⟩

@[simp] theorem pos_val {n b : ℕ} (p : Fin n) (q : Fin b) : (pos p q).val = p.val * b + q.val := rfl

/-- Every position is position `k % b` of block `k / b`, and of no other. -/
def posEquiv (n b : ℕ) : Fin n × Fin b ≃ Fin (n * b) where
  toFun x := pos x.1 x.2
  invFun k :=
    have hb : 0 < b := Nat.pos_of_ne_zero fun h => by
      have := k.isLt; simp [h] at this
    (⟨k.val / b, Nat.div_lt_of_lt_mul (Nat.mul_comm n b ▸ k.isLt)⟩, ⟨k.val % b, Nat.mod_lt _ hb⟩)
  left_inv := by
    rintro ⟨p, q⟩
    have hb : 0 < b := Nat.pos_of_ne_zero fun h => by
      have := q.isLt; simp [h] at this
    refine Prod.ext (Fin.ext ?_) (Fin.ext ?_)
    · show (p.val * b + q.val) / b = p.val
      rw [Nat.mul_comm, Nat.mul_add_div hb, Nat.div_eq_of_lt q.isLt, Nat.add_zero]
    · show (p.val * b + q.val) % b = q.val
      rw [Nat.mul_comm, Nat.mul_add_mod, Nat.mod_eq_of_lt q.isLt]
  right_inv := by
    intro k
    refine Fin.ext ?_
    show k.val / b * b + k.val % b = k.val
    rw [Nat.mul_comm]; exact Nat.div_add_mod _ _

/-- The whole sum is the sum of the blocks' sums. -/
theorem sum_blocks (n b : ℕ) (f : Fin (n * b) → M) :
    ∑ k : Fin (n * b), f k = ∑ p : Fin n, ∑ q : Fin b, f (pos p q) := by
  rw [← Fintype.sum_prod_type (f := fun x : Fin n × Fin b => f (pos x.1 x.2))]
  exact (Equiv.sum_comp (posEquiv n b) f).symm

/-- The same with the blocks counted by a range of naturals: `g p` is block `p`'s sum wherever `p < n`. -/
theorem sum_blocks_range (n b : ℕ) (f : Fin (n * b) → M) (g : ℕ → M)
    (hg : ∀ p : Fin n, g p.val = ∑ q : Fin b, f (pos p q)) :
    ∑ k : Fin (n * b), f k = ∑ p ∈ Finset.range n, g p := by
  rw [sum_blocks, Finset.sum_range]
  exact Finset.sum_congr rfl fun p _ => (hg p).symm

end BlockSum
-- ==== Proof.Algebra.lean ====
/-
  The algebra that joins a linear map with a low-rank update computed two ways.

  One side applies the updated weight in one pass: row `x` against `w + s • (b · a)`, a single sum over the
  4096 inner coordinates. The other never forms the updated weight: it first contracts `x` with the scaled
  factor `a · s` (giving 16 numbers), contracts those with `b`, and then adds the plain product `x · w` one
  block of 1024 inner coordinates after another. Over the reals the two agree by distributing `x k` over the
  sum `w k + s * ∑ r, b r * a r k` and exchanging the two finite sums. Distributivity fails at the infinities of
  the extended reals, so the law is stated for entries that are (images of) reals; the trailing term `β` is
  added last on both sides and may be any extended real.
-/
import Mathlib.Data.EReal.Operations
import proofs.«156513_j30451318128976_2_alg».proof.Proof.LibBlockSum

noncomputable section

open scoped BigOperators

namespace LowRank

/-- The image of a finite real sum is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Inner coordinate `k` of block `j`, among all 4096. -/
def at4 (j : Fin 4) (k : Fin 1024) : Fin 4096 :=
  ⟨j.val * 1024 + k.val, by have := j.isLt; have := k.isLt; omega⟩

@[simp] theorem at4_val (j : Fin 4) (k : Fin 1024) : (at4 j k).val = j.val * 1024 + k.val := rfl

/-- A sum over 4096 coordinates is the sum of its four consecutive blocks of 1024, in any commutative
    additive monoid. -/
theorem sum_four_blocks {M : Type*} [AddCommMonoid M] (f : Fin 4096 → M) :
    ∑ k, f k = ∑ k : Fin 1024, f (at4 0 k) + ∑ k : Fin 1024, f (at4 1 k) + ∑ k : Fin 1024, f (at4 2 k)
      + ∑ k : Fin 1024, f (at4 3 k) := by
  have h := BlockSum.sum_blocks 4 1024 (f : Fin (4 * 1024) → M)
  rw [Fin.sum_univ_four] at h
  exact h

/-- Over the reals: contracting with the scaled factor first, then with `b`, and adding the plain product, is
    the single product against the updated weight. -/
theorem real_law {ι ρ : Type*} [Fintype ι] [Fintype ρ] (x w : ι → ℝ) (a : ρ → ι → ℝ) (b : ρ → ℝ) (s : ℝ) :
    ∑ r, (∑ k, x k * (a r k * s)) * b r + ∑ k, x k * w k = ∑ k, x k * (w k + s * ∑ r, b r * a r k) := by
  calc ∑ r, (∑ k, x k * (a r k * s)) * b r + ∑ k, x k * w k
      = ∑ k, x k * w k + ∑ k, ∑ r, x k * (s * (b r * a r k)) := by
        rw [add_comm]
        congr 1
        rw [Finset.sum_comm]
        refine Finset.sum_congr rfl fun r _ => ?_
        rw [Finset.sum_mul]
        exact Finset.sum_congr rfl fun k _ => by ring
    _ = ∑ k, x k * (w k + s * ∑ r, b r * a r k) := by
        rw [← Finset.sum_add_distrib]
        refine Finset.sum_congr rfl fun k _ => ?_
        simp only [mul_add, Finset.mul_sum]

/-- On the extended reals, for real entries: the low-rank term, then the four blocks of the plain product added
    one after another, then `β`, equal the single product against the updated weight, then `β`. -/
theorem law (x w : Fin 4096 → EReal) (a : Fin 16 → Fin 4096 → EReal) (b : Fin 16 → EReal) (s β : EReal)
    (hx : ∀ k, ∃ v : ℝ, x k = (v : EReal)) (hw : ∀ k, ∃ v : ℝ, w k = (v : EReal))
    (ha : ∀ r k, ∃ v : ℝ, a r k = (v : EReal)) (hb : ∀ r, ∃ v : ℝ, b r = (v : EReal))
    (hs : ∃ v : ℝ, s = (v : EReal)) :
    ((((∑ r, (∑ k, x k * (a r k * s)) * b r) + ∑ k : Fin 1024, x (at4 0 k) * w (at4 0 k))
        + ∑ k : Fin 1024, x (at4 1 k) * w (at4 1 k)) + ∑ k : Fin 1024, x (at4 2 k) * w (at4 2 k)
        + ∑ k : Fin 1024, x (at4 3 k) * w (at4 3 k)) + β
      = (∑ k, x k * (w k + s * ∑ r, b r * a r k)) + β := by
  congr 1
  have h4 := sum_four_blocks (fun k => x k * w k)
  have hsplit : ((((∑ r, (∑ k, x k * (a r k * s)) * b r) + ∑ k : Fin 1024, x (at4 0 k) * w (at4 0 k))
        + ∑ k : Fin 1024, x (at4 1 k) * w (at4 1 k)) + ∑ k : Fin 1024, x (at4 2 k) * w (at4 2 k)
        + ∑ k : Fin 1024, x (at4 3 k) * w (at4 3 k))
      = (∑ r, (∑ k, x k * (a r k * s)) * b r) + ∑ k, x k * w k := by
    rw [h4]; simp only [add_assoc]
  rw [hsplit]
  choose xr hxr using hx
  choose wr hwr using hw
  choose ar har using ha
  choose br hbr using hb
  obtain ⟨sr, rfl⟩ := hs
  simp only [hxr, hwr, har, hbr, ← EReal.coe_mul, ← EReal.coe_add, ← coe_sum]
  exact congrArg _ (real_law xr wr ar br sr)

end LowRank

end
-- ==== Proof.KernelRead.lean ====
/-
  The tiled region's output array read at an index.

  The grid has 8 × 4 × 4 points in row-major order, so point `n` has coordinates `(n / 16, n / 4 % 4, n % 4)`:
  a row block, a column block and an inner block. The four points of a run share the output tile
  (row block, column block) and walk through the four inner blocks. At point `n` the region sees rows
  `n / 16` of `x` and `y` (1024 rows each), rows `n / 4 % 4` of `W` and `B`, the matching 1024 entries of the
  bias, and inner block `n % 4` of `x` and `W`.

  The output entry `(p, q)` lies in the tile of row block `p / 1024` and column block `q / 1024`, which is the
  run starting at point `16 * (p / 1024) + 4 * (q / 1024)`, at place `(p % 1024, q % 1024)` of the tile. Reading the
  run's fold there gives: the low-rank term `∑ r, y (p, r) * B (q, r)`, then for each inner block `j` the
  partial product `∑ k, x (p, 1024 j + k) * W (q, 1024 j + k)` added in order, then `bias q`.
-/
import proofs.«156513_j30451318128976_2_alg».proof.Proof.Gen.KernelIdeal.Value
import proofs.«156513_j30451318128976_2_alg».proof.Proof.Payloads
import proofs.«156513_j30451318128976_2_alg».proof.Proof.HostWindows
import proofs.«156513_j30451318128976_2_alg».proof.Proof.Algebra

noncomputable section

namespace Cert.KernelIdeal.Whole

open Cert.KernelIdeal Cert.KernelIdeal.Gen Cert.KernelIdeal.Value Cert.KernelIdeal.Entry
open Idealize.ShloMosaic Idealize.ShloMosaic.TcCoe Idealize.SL.Sem
open Idealize.ShloMosaic.ValueIdx
open LowRank (at4)

variable (m : (ℓ : Loc nD τ sig) → Buf (Elt Ideal) ℓ) (c : Dev nD)

/-! ### Which tile of each operand a point sees -/

/-- The tile indices of the five operands at point `t`, in terms of the point's place in the row-major grid,
    decided over the 128 points. -/
theorem tile_index_fin : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = 0
    ∧ win0_3.index t (0 : Fin 2) = t.val / 4 % 4 ∧ win0_3.index t (1 : Fin 2) = 0
    ∧ win0_4.index t (0 : Fin 2) = 0 ∧ win0_4.index t (1 : Fin 2) = t.val / 4 % 4 :=
  (by decide +kernel : ∀ t : Fin grid0.N, _)

/-- The same, for the point numbered `n`. -/
theorem tile_index (n : ℕ) (h : n < cfg0.N) :
    win0_0.index ⟨n, h⟩ (0 : Fin 2) = n / 16 ∧ win0_0.index ⟨n, h⟩ (1 : Fin 2) = n % 4
    ∧ win0_1.index ⟨n, h⟩ (0 : Fin 2) = n / 4 % 4 ∧ win0_1.index ⟨n, h⟩ (1 : Fin 2) = n % 4
    ∧ win0_2.index ⟨n, h⟩ (0 : Fin 2) = n / 16 ∧ win0_2.index ⟨n, h⟩ (1 : Fin 2) = 0
    ∧ win0_3.index ⟨n, h⟩ (0 : Fin 2) = n / 4 % 4 ∧ win0_3.index ⟨n, h⟩ (1 : Fin 2) = 0
    ∧ win0_4.index ⟨n, h⟩ (0 : Fin 2) = 0 ∧ win0_4.index ⟨n, h⟩ (1 : Fin 2) = n / 4 % 4 :=
  tile_index_fin ⟨n, h⟩

/-- The tile of `x` at point `n`, at `(u, k)`: row `1024 * (n / 16) + u`, inner coordinate `1024 * (n % 4) + k`. -/
theorem x_tile (n : ℕ) (h : n < cfg0.N) (u k : Fin 1024) (p : Fin 8192) (i : Fin 4096)
    (hp : p.val = n / 16 * 1024 + u.val) (hi : i.val = n % 4 * 1024 + k.val) :
    (iblk m c 0 ⟨n, h⟩ : Vec Ideal S1024x1024 .bf16) (ix2 u k) = argX m c (ix2 p i) := by
  obtain ⟨e0, e1, -⟩ := tile_index n h
  refine Eq.trans ?_ (x_at m c (ix2 p i))
  show V m c main_v5 (((cfg0.win 0).blk ⟨n, h⟩).view.emb (ix2 u k)) = V m c main_v5 (ix2 p i)
  refine congrArg _ (funext fun a => Fin.ext ?_)
  match a with
  | ⟨0, _⟩ => show win0_0.index ⟨n, h⟩ (0 : Fin 2) * 1024 + 1 * u.val = p.val; rw [e0, hp]; omega
  | ⟨1, _⟩ => show win0_0.index ⟨n, h⟩ (1 : Fin 2) * 1024 + 1 * k.val = i.val; rw [e1, hi]; omega

/-- The tile of `W` at point `n`, at `(v, k)`: row `1024 * (n / 4 % 4) + v`, inner coordinate `1024 * (n % 4) + k`. -/
theorem w_tile (n : ℕ) (h : n < cfg0.N) (v k : Fin 1024) (q : Fin 4096) (i : Fin 4096)
    (hq : q.val = n / 4 % 4 * 1024 + v.val) (hi : i.val = n % 4 * 1024 + k.val) :
    (iblk m c 1 ⟨n, h⟩ : Vec Ideal S1024x1024 .bf16) (ix2 v k) = argW m c (ix2 q i) := by
  obtain ⟨-, -, e0, e1, -⟩ := tile_index n h
  refine Eq.trans ?_ (w_at m c (ix2 q i))
  show V m c main_v6 (((cfg0.win 1).blk ⟨n, h⟩).view.emb (ix2 v k)) = V m c main_v6 (ix2 q i)
  refine congrArg _ (funext fun a => Fin.ext ?_)
  match a with
  | ⟨0, _⟩ => show win0_1.index ⟨n, h⟩ (0 : Fin 2) * 1024 + 1 * v.val = q.val; rw [e0, hq]; omega
  | ⟨1, _⟩ => show win0_1.index ⟨n, h⟩ (1 : Fin 2) * 1024 + 1 * k.val = i.val; rw [e1, hi]; omega

/-- The tile of `y` at point `n`, at `(u, r)`: row `1024 * (n / 16) + u`, all 16 columns. -/
theorem y_tile (n : ℕ) (h : n < cfg0.N) (u : Fin 1024) (r : Fin 16) (p : Fin 8192)
    (hp : p.val = n / 16 * 1024 + u.val) :
    (iblk m c 2 ⟨n, h⟩ : Vec Ideal S1024x16 .bf16) (ix2 u r)
      = ∑ k : Fin 4096, argX m c (ix2 p k) * (argA m c (ix2 r k) * argS m c ix0) := by
  obtain ⟨-, -, -, -, e0, e1, -⟩ := tile_index n h
  refine Eq.trans ?_ (y_at m c p r)
  show V m c main_v4 (((cfg0.win 2).blk ⟨n, h⟩).view.emb (ix2 u r)) = V m c main_v4 (ix2 p r)
  refine congrArg _ (funext fun a => Fin.ext ?_)
  match a with
  | ⟨0, _⟩ => show win0_2.index ⟨n, h⟩ (0 : Fin 2) * 1024 + 1 * u.val = p.val; rw [e0, hp]; omega
  | ⟨1, _⟩ => show win0_2.index ⟨n, h⟩ (1 : Fin 2) * 16 + 1 * r.val = r.val; rw [e1]; omega

/-- The tile of `B` at point `n`, at `(v, r)`: row `1024 * (n / 4 % 4) + v`, all 16 columns. -/
theorem b_tile (n : ℕ) (h : n < cfg0.N) (v : Fin 1024) (r : Fin 16) (q : Fin 4096)
    (hq : q.val = n / 4 % 4 * 1024 + v.val) :
    (iblk m c 3 ⟨n, h⟩ : Vec Ideal S1024x16 .bf16) (ix2 v r) = argB m c (ix2 q r) := by
  obtain ⟨-, -, -, -, -, -, e0, e1, -⟩ := tile_index n h
  refine Eq.trans ?_ (b_at m c (ix2 q r))
  show V m c main_v7 (((cfg0.win 3).blk ⟨n, h⟩).view.emb (ix2 v r)) = V m c main_v7 (ix2 q r)
  refine congrArg _ (funext fun a => Fin.ext ?_)
  match a with
  | ⟨0, _⟩ => show win0_3.index ⟨n, h⟩ (0 : Fin 2) * 1024 + 1 * v.val = q.val; rw [e0, hq]; omega
  | ⟨1, _⟩ => show win0_3.index ⟨n, h⟩ (1 : Fin 2) * 16 + 1 * r.val = r.val; rw [e1]; omega

/-- The tile of the bias at point `n`, at `(0, v)`: entry `1024 * (n / 4 % 4) + v`. -/
theorem bias_tile (n : ℕ) (h : n < cfg0.N) (v : Fin 1024) (q : Fin 4096)
    (hq : q.val = n / 4 % 4 * 1024 + v.val) :
    (iblk m c 4 ⟨n, h⟩ : Vec Ideal S1x1024 .f32) (ix2 (0 : Fin 1) v) = argBias m c (ix1 q) := by
  obtain ⟨-, -, -, -, -, -, -, -, e0, e1⟩ := tile_index n h
  refine Eq.trans ?_ (bias_at m c q)
  show V m c main_v8 (((cfg0.win 4).blk ⟨n, h⟩).view.emb (ix2 (0 : Fin 1) v)) = V m c main_v8 (ix2 (0 : Fin 1) q)
  refine congrArg _ (funext fun a => Fin.ext ?_)
  match a with
  | ⟨0, _⟩ => show win0_4.index ⟨n, h⟩ (0 : Fin 2) * 1 + 1 * 0 = 0; rw [e0]
  | ⟨1, _⟩ => show win0_4.index ⟨n, h⟩ (1 : Fin 2) * 1024 + 1 * v.val = q.val; rw [e1, hq]; omega

/-! ### A run's fold, unrolled -/

/-- The fold of the run that starts at a point `b` divisible by four: the first point stores the low-rank term and
    adds its product, the next two add theirs, the last adds its product and then the bias row. -/
theorem fold_unroll (b : ℕ) (hb : b % 4 = 0) (h : b + 3 < cfg0.N) :
    Pipeline.accAt (reset5 m c) (step5 m c) b 3 h
      = k0_pay3 (k0_pay2 (k0_pay2 (k0_pay2 (k0_pay2
            (k0_pay1 (iblk m c 2 ⟨b, by omega⟩) (iblk m c 3 ⟨b, by omega⟩))
            (iblk m c 0 ⟨b, by omega⟩) (iblk m c 1 ⟨b, by omega⟩))
            (iblk m c 0 ⟨b + 1, by omega⟩) (iblk m c 1 ⟨b + 1, by omega⟩))
            (iblk m c 0 ⟨b + 2, by omega⟩) (iblk m c 1 ⟨b + 2, by omega⟩))
            (iblk m c 0 ⟨b + 3, h⟩) (iblk m c 1 ⟨b + 3, h⟩))
          (iblk m c 4 ⟨b + 3, h⟩) := by
  have e1 : ∀ acc, step5 m c (b + 1) (by omega) acc
      = k0_pay2 acc (iblk m c 0 ⟨b + 1, by omega⟩) (iblk m c 1 ⟨b + 1, by omega⟩) := fun acc => by
    unfold step5; exact if_pos ⟨by omega, by omega⟩
  have e2 : ∀ acc, step5 m c (b + 2) (by omega) acc
      = k0_pay2 acc (iblk m c 0 ⟨b + 2, by omega⟩) (iblk m c 1 ⟨b + 2, by omega⟩) := fun acc => by
    unfold step5; exact if_pos ⟨by omega, by omega⟩
  have e3 : ∀ acc, step5 m c (b + 3) h acc
      = k0_pay3 (k0_pay2 acc (iblk m c 0 ⟨b + 3, h⟩) (iblk m c 1 ⟨b + 3, h⟩)) (iblk m c 4 ⟨b + 3, h⟩) := fun acc => by
    unfold step5; rw [if_neg (by omega)]; exact if_pos ⟨by omega, by omega⟩
  show step5 m c (b + 3) h (step5 m c (b + 2) (by omega) (step5 m c (b + 1) (by omega) (reset5 m c b (by omega)))) = _
  rw [e3, e2, e1]
  rfl

/-! ### The output array at an index -/

/-- The output at `(p, q)`: the low-rank term, the four partial products of row `p` of `x` with row `q` of `W`
    added block by block, and the bias of column `q`. -/
theorem result_apply (p : Fin 8192) (q : Fin 4096) :
    G5 m c (ix2 p q)
      = (((((∑ r : Fin 16, (∑ k : Fin 4096, argX m c (ix2 p k) * (argA m c (ix2 r k) * argS m c ix0)) * argB m c (ix2 q r))
            + ∑ k : Fin 1024, argX m c (ix2 p (at4 0 k)) * argW m c (ix2 q (at4 0 k)))
            + ∑ k : Fin 1024, argX m c (ix2 p (at4 1 k)) * argW m c (ix2 q (at4 1 k)))
            + ∑ k : Fin 1024, argX m c (ix2 p (at4 2 k)) * argW m c (ix2 q (at4 2 k)))
            + ∑ k : Fin 1024, argX m c (ix2 p (at4 3 k)) * argW m c (ix2 q (at4 3 k)))
          + argBias m c (ix1 q) := by
  have hp := p.isLt
  have hq := q.isLt
  have hN : cfg0.N = 128 := N_0
  have hr : run5Of (ix2 p q) = 4 * (p.val / 1024) + q.val / 1024 := by
    show 4 * (p.val / 1024 - 0) + 1 * (q.val / 1024 - 0) = _
    omega
  have hlt : 4 * run5Of (ix2 p q) + 3 < cfg0.N := by rw [hr, hN]; omega
  have hloc : loc5Of (ix2 p q)
      = ix2 (⟨p.val % 1024, Nat.mod_lt _ (by decide)⟩ : Fin 1024) (⟨q.val % 1024, Nat.mod_lt _ (by decide)⟩ : Fin 1024) :=
    funext fun a => by match a with | ⟨0, _⟩ => rfl | ⟨1, _⟩ => rfl
  unfold G5
  rw [dif_pos hlt, hloc]
  generalize hB : 4 * run5Of (ix2 p q) = B at hlt ⊢
  rw [hr] at hB
  rw [hN] at hlt
  have hlt' : B + 3 < cfg0.N := by rw [hN]; exact hlt
  refine (congrFun (fold_unroll m c B (by omega) hlt') _).trans ?_
  refine (Tile.run_apply _ _ _ _ _ _ _ _ _ _ _ _ _).trans ?_
  refine congrArg₂ (· + ·) (congrArg₂ (· + ·) (congrArg₂ (· + ·) (congrArg₂ (· + ·) (congrArg₂ (· + ·) ?_ ?_) ?_) ?_) ?_) ?_
  · refine Finset.sum_congr rfl fun r _ => congrArg₂ (· * ·) ?_ ?_
    · exact y_tile m c B _ _ r p (by show p.val = B / 16 * 1024 + p.val % 1024; omega)
    · exact b_tile m c B _ _ r q (by show q.val = B / 4 % 4 * 1024 + q.val % 1024; omega)
  · refine Finset.sum_congr rfl fun k _ => congrArg₂ (· * ·) ?_ ?_
    · exact x_tile m c B _ _ k p (at4 0 k) (by show p.val = B / 16 * 1024 + p.val % 1024; omega)
        (by show (0 : Fin 4).val * 1024 + k.val = B % 4 * 1024 + k.val; show 0 * 1024 + k.val = _; omega)
    · exact w_tile m c B _ _ k q (at4 0 k) (by show q.val = B / 4 % 4 * 1024 + q.val % 1024; omega)
        (by show 0 * 1024 + k.val = B % 4 * 1024 + k.val; omega)
  · refine Finset.sum_congr rfl fun k _ => congrArg₂ (· * ·) ?_ ?_
    · exact x_tile m c (B + 1) _ _ k p (at4 1 k) (by show p.val = (B + 1) / 16 * 1024 + p.val % 1024; omega)
        (by show 1 * 1024 + k.val = (B + 1) % 4 * 1024 + k.val; omega)
    · exact w_tile m c (B + 1) _ _ k q (at4 1 k) (by show q.val = (B + 1) / 4 % 4 * 1024 + q.val % 1024; omega)
        (by show 1 * 1024 + k.val = (B + 1) % 4 * 1024 + k.val; omega)
  · refine Finset.sum_congr rfl fun k _ => congrArg₂ (· * ·) ?_ ?_
    · exact x_tile m c (B + 2) _ _ k p (at4 2 k) (by show p.val = (B + 2) / 16 * 1024 + p.val % 1024; omega)
        (by show 2 * 1024 + k.val = (B + 2) % 4 * 1024 + k.val; omega)
    · exact w_tile m c (B + 2) _ _ k q (at4 2 k) (by show q.val = (B + 2) / 4 % 4 * 1024 + q.val % 1024; omega)
        (by show 2 * 1024 + k.val = (B + 2) % 4 * 1024 + k.val; omega)
  · refine Finset.sum_congr rfl fun k _ => congrArg₂ (· * ·) ?_ ?_
    · exact x_tile m c (B + 3) _ _ k p (at4 3 k) (by show p.val = (B + 3) / 16 * 1024 + p.val % 1024; omega)
        (by show 3 * 1024 + k.val = (B + 3) % 4 * 1024 + k.val; omega)
    · exact w_tile m c (B + 3) _ _ k q (at4 3 k) (by show q.val = (B + 3) / 4 % 4 * 1024 + q.val % 1024; omega)
        (by show 3 * 1024 + k.val = (B + 3) % 4 * 1024 + k.val; omega)
  · exact bias_tile m c (B + 3) _ _ q (by show q.val = (B + 3) / 4 % 4 * 1024 + q.val % 1024; omega)

end Cert.KernelIdeal.Whole

end
-- ==== Proof.RefRead.lean ====
/-
  The reference read at an index.

  The reference forms the updated weight `W + s • (B · A)` entry by entry and contracts each row of `x` with a
  row of it; the bias of the output column is added last. At row `p` and column `q` that is the sum over the
  4096 inner coordinates `k` of `x (p, k) * (W (q, k) + s * ∑ r, B (q, r) * A (r, k))`, plus `bias q`.
-/
import proofs.«156513_j30451318128976_2_alg».proof.Proof.Gen.ReferenceIdeal.Read

noncomputable section

namespace Cert.ReferenceIdeal.AtIndex

open Cert.ReferenceIdeal Cert.ReferenceIdeal.Gen Cert.ReferenceIdeal.Read
open Idealize.ShloMosaic Idealize.ShloMosaic.ValueIdx

/-- The reference's result at `(p, q)`: row `p` of `x` against row `q` of the updated weight, plus the bias. -/
theorem result_apply (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x16, .f32⟩ : BufTy).Contents (Elt Ideal))
    (x4 : (⟨S16x4096, .f32⟩ : BufTy).Contents (Elt Ideal)) (x5 : (⟨S_, .f32⟩ : BufTy).Contents (Elt Ideal))
    (p : Fin 8192) (q : Fin 4096) :
    val_main_v7 (F := Ideal) x0 x1 x2 x3 x4 x5 (ix2 p q)
      = (∑ k : Fin 4096, x0 (ix2 p k) * (x1 (ix2 q k) + x5 ix0 * ∑ r : Fin 16, x3 (ix2 q r) * x4 (ix2 r k)))
        + x2 (ix1 q) := by
  have e1 : ∀ k : Fin 4096, lidx_main_v4 (ix2 p q) k = ix2 p k := fun k =>
    funext fun a => Fin.ext (by match a with | ⟨0, _⟩ => rfl | ⟨1, _⟩ => rfl)
  have e2 : ∀ k : Fin 4096, ridx_main_v4 (ix2 p q) k = ix2 q k := fun k =>
    funext fun a => Fin.ext (by match a with | ⟨0, _⟩ => rfl | ⟨1, _⟩ => rfl)
  have e3 : ∀ (k : Fin 4096) (r : Fin 16), lidx_main_v0 (ix2 q k) r = ix2 q r := fun k r =>
    funext fun a => Fin.ext (by match a with | ⟨0, _⟩ => rfl | ⟨1, _⟩ => rfl)
  have e4 : ∀ (k : Fin 4096) (r : Fin 16), ridx_main_v0 (ix2 q k) r = ix2 r k := fun k r =>
    funext fun a => Fin.ext (by match a with | ⟨0, _⟩ => rfl | ⟨1, _⟩ => rfl)
  have e5 : idx_main_v5 (idx_main_v6 (ix2 p q)) = ix1 q :=
    funext fun a => Fin.ext (by match a with | ⟨0, _⟩ => rfl)
  have e6 : ∀ i : S4096x4096.Idx, idx_main_v1 i = ix0 := fun i => funext fun a => a.elim0
  rw [val_main_v7_apply, val_main_v4_apply, val_main_v6_apply, val_main_v5_apply, e5]
  simp only [e1, e2, val_main_v3_apply, val_main_v2_apply, val_main_v1_apply, val_main_v0_apply, e3, e4, e6,
    Ideal.addf_def, Ideal.mulf_def]

end Cert.ReferenceIdeal.AtIndex

end
-- ==== Proof.Finite.lean ====
/-
  The precondition read back: every entry of every argument is a real number.

  The precondition asks, argument by argument, that the absolute value of every entry be strictly below the
  float pattern of +∞, and conjoins the six answers. On the extended reals the absolute value of `x` is
  `max x (-x)`, which is `+∞` exactly when `x` is `+∞` or `-∞`; so an entry that passes is neither infinity,
  that is, it is (the image of) a real number.
-/
import proofs.«156513_j30451318128976_2_alg».proof.Pre_finite_inputs
import proofs.«156513_j30451318128976_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Decode

open Cert.Pre_finite_inputs Idealize.ShloMosaic

/-- The pattern `0x7F800000` denotes `+∞`. -/
theorem ofBits_inf : Ideal.ofBits .f32 0x7F800000#32 = (⊤ : EReal) := by
  simp [Ideal.ofBits, Ideal.ieee]

/-- An extended real whose absolute value is strictly below `+∞` is a real. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  have ht : x ≠ ⊤ := by rintro rfl; simp at hlt
  have hb : x ≠ ⊥ := by rintro rfl; simp at hlt
  exact ⟨x.toReal, (EReal.coe_toReal ht hb).symm⟩

instance : Subsingleton S_.Idx := ⟨fun a b => funext fun d => d.elim0⟩

/-- Under the precondition every entry of each of the six arguments is a real. -/
theorem real_of_pre (a0 : FVec Ideal S8192x4096 .f32) (a1 : FVec Ideal S4096x4096 .f32) (a2 : FVec Ideal S4096 .f32)
    (a3 : FVec Ideal S4096x16 .f32) (a4 : FVec Ideal S16x4096 .f32) (a5 : FVec Ideal S_ .f32)
    (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [fn, fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨fun i => real_of_abs_lt_inf _ (Host.reduce_andi_all _ _ _ _ _ h0' i),
    fun i => real_of_abs_lt_inf _ (Host.reduce_andi_all _ _ _ _ _ h1 i),
    fun i => real_of_abs_lt_inf _ (Host.reduce_andi_all _ _ _ _ _ h2 i),
    fun i => real_of_abs_lt_inf _ (Host.reduce_andi_all _ _ _ _ _ h3 i),
    fun i => real_of_abs_lt_inf _ (Host.reduce_andi_all _ _ _ _ _ h4 i),
    fun i => real_of_abs_lt_inf _ (Host.reduce_andi_all _ _ _ _ _ h5 i)⟩

end Cert.Pre_finite_inputs.Decode

end
-- ==== Proof.Bridge.lean ====
/-
  The two programs compute one function of real arguments.

  At row `p` and column `q` the reference's result is `∑ k, x (p, k) * (W (q, k) + s * ∑ r, B (q, r) * A (r, k))
  + bias q`; the tiled region's is the low-rank term `∑ r, (∑ k, x (p, k) * (A (r, k) * s)) * B (q, r)`, then the
  product of row `p` of `x` with row `q` of `W` added in four blocks of 1024 inner coordinates, then `bias q`.
  Under the precondition every entry of `x`, `W`, `B`, `A` and the scale is a real number, and for real entries the
  two expressions agree (distributing `x (p, k)` over the updated weight's entry and exchanging the two sums); the
  bias is added last on both sides and needs no hypothesis.
-/
import proofs.«156513_j30451318128976_2_alg».proof.Proof.KernelRead
import proofs.«156513_j30451318128976_2_alg».proof.Proof.RefRead
import proofs.«156513_j30451318128976_2_alg».proof.Proof.Finite

noncomputable section

namespace Cert.KernelIdeal.Whole

open Cert.KernelIdeal Cert.KernelIdeal.Gen Cert.KernelIdeal.Value Cert.KernelIdeal.Entry
open Idealize.ShloMosaic Idealize.ShloMosaic.TcCoe Idealize.SL.Sem
open Idealize.ShloMosaic.ValueIdx

/-- Under the precondition the reference's result array, as a function of the region's arguments, is the array
    the tiled region leaves. -/
theorem reference_eq (m : (ℓ : Loc nD τ sig) → Buf (Elt Ideal) ℓ) (c : Dev nD)
    (hpre : Cert.Pre_finite_inputs.fn (F := Ideal) (argX m c) (argW m c) (argBias m c) (argB m c) (argA m c) (argS m c)
      = fun _ => 1#1) :
    Cert.ReferenceIdeal.Read.val_main_v7 (F := Ideal) (argX m c) (argW m c) (argBias m c) (argB m c) (argA m c) (argS m c)
      = G5 m c := by
  obtain ⟨h0, h1, -, h3, h4, h5⟩ := Cert.Pre_finite_inputs.Decode.real_of_pre _ _ _ _ _ _ hpre
  refine funext fun (i : S8192x4096.Idx) => ?_
  obtain ⟨p, q, rfl⟩ : ∃ (p : Fin 8192) (q : Fin 4096), i = ix2 p q := ⟨i 0, i 1, eq_ix2 i⟩
  refine (Cert.ReferenceIdeal.AtIndex.result_apply _ _ _ _ _ _ p q).trans ?_
  refine Eq.trans ?_ (result_apply m c p q).symm
  exact (LowRank.law (fun k => argX m c (ix2 p k)) (fun k => argW m c (ix2 q k)) (fun r k => argA m c (ix2 r k))
    (fun r => argB m c (ix2 q r)) (argS m c ix0) (argBias m c (ix1 q))
    (fun k => h0 _) (fun k => h1 _) (fun r k => h4 _) (fun r => h3 _) (h5 _)).symm

end Cert.KernelIdeal.Whole

end
-- ==== Proof.lean ====
/-
  A linear layer with a low-rank update, tiled, against its plain reference.

  The reference forms the updated weight `W + s • (B · A)` and computes `x · (W + s • (B · A))ᵀ + bias` in one
  product. The kernel never forms the updated weight: the host computes `y = x · (A * s)ᵀ` (16 numbers per row),
  and a tiled region over an 8 × 4 × 4 grid fills each 1024 × 1024 output tile over a run of four points — the
  first stores `y · Bᵀ`, every point adds the product of its tiles of `x` and `W`, the last adds the bias row.
  On the extended reals a change of float format is the identity, so the two programs differ only in the
  arrangement of one finite sum of products; for real arguments, which the precondition grants, the arrangements
  agree by distributivity and an exchange of sums (Proof/Algebra.lean).

  What each side holds at an index is read in Proof/RefRead.lean (the reference), Proof/HostWindows.lean (the
  region's operands), Proof/Payloads.lean (a tile's stored values) and Proof/KernelRead.lean (the output array);
  Proof/Finite.lean reads the precondition; Proof/Bridge.lean joins them. The idealized programs differ from the
  printed kernel by no rewrite, so the idealization claim is trivial.
-/
import proofs.«156513_j30451318128976_2_alg».proof.Defs
import proofs.«156513_j30451318128976_2_alg».proof.Proof.Gen.Kernel.Frame
import proofs.«156513_j30451318128976_2_alg».proof.Proof.Gen.KernelIdeal.Value
import proofs.«156513_j30451318128976_2_alg».proof.Proof.Gen.Pre_finite_inputs
import proofs.«156513_j30451318128976_2_alg».proof.Proof.Gen.ReferenceIdeal.Run
import proofs.«156513_j30451318128976_2_alg».proof.Proof.Bridge
import Idealize.ShloMosaic.Adequacy
import Idealize.ShloMosaic.Init

noncomputable section

namespace Cert.Proof

open Idealize.ShloMosaic Idealize.SL.Sem

/-- The idealized kernel runs and leaves its arguments as they were: its value run, with the result dropped. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its arguments as they were: its run, with the result dropped. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the arguments both programs end with the array of `Cert.KernelIdeal.Value.G5`: the
    kernel by its value run, the reference because under the precondition its result is that array. -/
theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.Read.val_main_v7_eq _ _ _ _ _ _).trans (Cert.KernelIdeal.Whole.reference_eq m c (hpre c))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
